-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x100000x64 : Shape := ⟨3, ![8, 100000, 64]⟩
abbrev S2000000 : Shape := ⟨1, ![2000000]⟩
abbrev S_ : Shape := ⟨0, ![]⟩

class Facts : Prop where
  bcast_S_S8x100000x64 : S_.BroadcastsInDim S8x100000x64 (![] : Fin 0 → Fin S8x100000x64.rank)
  reducesTo_S8x100000x64_S_d0_1_2 : S8x100000x64.ReducesTo [0, 1, 2] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S8x100000x64 .f32) (main_arg1 : FVec F S2000000 .f32) (main_arg2 : IVec S8x100000x64 32) (main_arg3 : IVec S8x100000x64 32) : IVec S_ 1 :=
  let main_v0 : FVec F S8x100000x64 .f32 := Host.absf main_arg0
  let main_cst : FVec F S_ .f32 := constant S_ .f32 0x7F800000#32
  let main_v1 : FVec F S8x100000x64 .f32 := broadcastInDim S8x100000x64 ![] bcast_S_S8x100000x64 main_cst
  let main_v2 : IVec S8x100000x64 1 := cmpf .olt main_v0 main_v1
  let main_c : IVec S_ 1 := constantI S_ 1 1#1
  let main_v3 : IVec S_ 1 := (fun x v => Host.reduce IntOp.andi x v reducesTo_S8x100000x64_S_d0_1_2 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_c_2 : IVec S_ 32 := constantI S_ 32 0#32
  let main_v9 : IVec S8x100000x64 32 := broadcastInDim S8x100000x64 ![] bcast_S_S8x100000x64 main_c_2
  let main_v10 : IVec S8x100000x64 1 := cmpi .eq main_arg2 main_v9
  let main_c_3 : IVec S_ 32 := constantI S_ 32 1#32
  let main_v11 : IVec S8x100000x64 32 := broadcastInDim S8x100000x64 ![] bcast_S_S8x100000x64 main_c_3
  let main_v12 : IVec S8x100000x64 1 := cmpi .eq main_arg2 main_v11
  let main_v13 : IVec S8x100000x64 1 := ori main_v10 main_v12
  let main_c_4 : IVec S_ 1 := constantI S_ 1 1#1
  let main_v14 : IVec S_ 1 := (fun x v => Host.reduce IntOp.andi x v reducesTo_S8x100000x64_S_d0_1_2 h_S_) main_v13 main_c_4
  let main_v15 : IVec S_ 1 := andi main_v8 main_v14
  main_v15
-- ==== Kernel.lean ====
abbrev S8x100000x64 : Shape := ⟨3, ![8, 100000, 64]⟩
abbrev S2000000 : Shape := ⟨1, ![2000000]⟩
abbrev S_ : Shape := ⟨0, ![]⟩
abbrev S8x100000x64x1 : Shape := ⟨4, ![8, 100000, 64, 1]⟩
abbrev S400000x128 : Shape := ⟨2, ![400000, 128]⟩
abbrev S8000x128 : Shape := ⟨2, ![8000, 128]⟩

abbrev nBuf : Space → Nat
  | .hbm => 18
  | .vmem => 8
  | .smem => 0
  | _ => 0

abbrev bufTy : (tb : Table) → Fin (tcTables nBuf tb) → BufTy
  | .hbm, ⟨0, _⟩ => ⟨S8x100000x64, .f32⟩
  | .hbm, ⟨1, _⟩ => ⟨S2000000, .f32⟩
  | .hbm, ⟨2, _⟩ => ⟨S8x100000x64, .i32⟩
  | .hbm, ⟨3, _⟩ => ⟨S8x100000x64, .i32⟩
  | .hbm, ⟨4, _⟩ => ⟨S_, .i32⟩
  | .hbm, ⟨5, _⟩ => ⟨S8x100000x64, .i32⟩
  | .hbm, ⟨6, _⟩ => ⟨S8x100000x64, .i1⟩
  | .hbm, ⟨7, _⟩ => ⟨S_, .i32⟩
  | .hbm, ⟨8, _⟩ => ⟨S8x100000x64, .i32⟩
  | .hbm, ⟨9, _⟩ => ⟨S8x100000x64, .i32⟩
  | .hbm, ⟨10, _⟩ => ⟨S8x100000x64, .i32⟩
  | .hbm, ⟨11, _⟩ => ⟨S8x100000x64x1, .i32⟩
  | .hbm, ⟨12, _⟩ => ⟨S8x100000x64, .f32⟩
  | .hbm, ⟨13, _⟩ => ⟨S400000x128, .f32⟩
  | .hbm, ⟨14, _⟩ => ⟨S400000x128, .i32⟩
  | .hbm, ⟨15, _⟩ => ⟨S400000x128, .f32⟩
  | .hbm, ⟨16, _⟩ => ⟨S400000x128, .f32⟩
  | .hbm, ⟨17, _⟩ => ⟨S8x100000x64, .f32⟩
  | .local _ .vmem, ⟨0, _⟩ => ⟨S8000x128, .f32⟩
  | .local _ .vmem, ⟨1, _⟩ => ⟨S8000x128, .f32⟩
  | .local _ .vmem, ⟨2, _⟩ => ⟨S8000x128, .i32⟩
  | .local _ .vmem, ⟨3, _⟩ => ⟨S8000x128, .i32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | _, _ => ⟨S8x100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0_0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8x100000x64 : S_.BroadcastsInDim S8x100000x64 (![] : Fin 0 → Fin S8x100000x64.rank)
  bcast_S8x100000x64_S8x100000x64x1_0_1_2 : S8x100000x64.BroadcastsInDim S8x100000x64x1 (![0, 1, 2] : Fin 3 → Fin S8x100000x64x1.rank)
  shapeCasts_S8x100000x64_S400000x128 : S8x100000x64.ShapeCasts S400000x128
  shapeCasts_S400000x128_S8x100000x64 : S400000x128.ShapeCasts S8x100000x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  gather_S2000000_S8x100000x64x1_S8x100000x64_n_0_n_n_0_3_1_wf : GatherDims.WF S2000000 S8x100000x64x1 S8x100000x64 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S400000x128.size a
  hwx0_1 : ∀ i : grid0.Coords, EltTy.bits .i32 = 32 ∨ (Rect.block (s := S400000x128) S8000x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S400000x128.size a
  hwx0_2 : ∀ i : grid0.Coords, EltTy.bits .f32 = 32 ∨ (Rect.block (s := S400000x128) S8000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S400000x128.size a
  hwx0_3 : ∀ i : grid0.Coords, EltTy.bits .f32 = 32 ∨ (Rect.block (s := S400000x128) S8000x128.size (cc0_transform_3 i) (hinb0_3 i)).WholeWords (EltTy.packing .f32)

variable [Facts₀]

def gather_S2000000_S8x100000x64x1_S8x100000x64_n_0_n_n_0_3_1 : GatherDims S2000000 S8x100000x64x1 S8x100000x64 where
  offsetDims := []
  collapsedSliceDims := [0]
  operandBatchingDims := []
  startIndicesBatchingDims := []
  startIndexMap := [0]
  indexVectorDim := 3
  sliceSizes := ![1]
  wf := gather_S2000000_S8x100000x64x1_S8x100000x64_n_0_n_n_0_3_1_wf

abbrev win0_0 : Pipeline.Window sig grid0 :=
  Pipeline.Window.ofSpec (Memref.whole main_call0_v7) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x100000x64 : Shape := ⟨3, ![8, 100000, 64]⟩
abbrev S2000000 : Shape := ⟨1, ![2000000]⟩
abbrev S_ : Shape := ⟨0, ![]⟩
abbrev S8x100000x64x1 : Shape := ⟨4, ![8, 100000, 64, 1]⟩

abbrev nBuf : Space → Nat
  | .hbm => 17
  | .vmem => 0
  | .smem => 0
  | _ => 0

abbrev bufTy : (tb : Table) → Fin (tcTables nBuf tb) → BufTy
  | .hbm, ⟨0, _⟩ => ⟨S8x100000x64, .f32⟩
  | .hbm, ⟨1, _⟩ => ⟨S2000000, .f32⟩
  | .hbm, ⟨2, _⟩ => ⟨S8x100000x64, .i32⟩
  | .hbm, ⟨3, _⟩ => ⟨S8x100000x64, .i32⟩
  | .hbm, ⟨4, _⟩ => ⟨S_, .i32⟩
  | .hbm, ⟨5, _⟩ => ⟨S8x100000x64, .i32⟩
  | .hbm, ⟨6, _⟩ => ⟨S8x100000x64, .i1⟩
  | .hbm, ⟨7, _⟩ => ⟨S_, .i32⟩
  | .hbm, ⟨8, _⟩ => ⟨S8x100000x64, .i32⟩
  | .hbm, ⟨9, _⟩ => ⟨S8x100000x64, .i32⟩
  | .hbm, ⟨10, _⟩ => ⟨S8x100000x64, .i32⟩
  | .hbm, ⟨11, _⟩ => ⟨S8x100000x64x1, .i32⟩
  | .hbm, ⟨12, _⟩ => ⟨S8x100000x64, .f32⟩
  | .hbm, ⟨13, _⟩ => ⟨S_, .i32⟩
  | .hbm, ⟨14, _⟩ => ⟨S8x100000x64, .i32⟩
  | .hbm, ⟨15, _⟩ => ⟨S8x100000x64, .i1⟩
  | .hbm, ⟨16, _⟩ => ⟨S8x100000x64, .f32⟩
  | _, _ => ⟨S8x100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S8x100000x64 : S_.BroadcastsInDim S8x100000x64 (![] : Fin 0 → Fin S8x100000x64.rank)
  bcast_S8x100000x64_S8x100000x64x1_0_1_2 : S8x100000x64.BroadcastsInDim S8x100000x64x1 (![0, 1, 2] : Fin 3 → Fin S8x100000x64x1.rank)
  gather_S2000000_S8x100000x64x1_S8x100000x64_n_0_n_n_0_3_1_wf : GatherDims.WF S2000000 S8x100000x64x1 S8x100000x64 [] [0] [] [0] [] 3 ![1]

variable [Facts₀]

def gather_S2000000_S8x100000x64x1_S8x100000x64_n_0_n_n_0_3_1 : GatherDims S2000000 S8x100000x64x1 S8x100000x64 where
  offsetDims := []
  collapsedSliceDims := [0]
  operandBatchingDims := []
  startIndicesBatchingDims := []
  startIndexMap := [0]
  indexVectorDim := 3
  sliceSizes := ![1]
  wf := gather_S2000000_S8x100000x64x1_S8x100000x64_n_0_n_n_0_3_1_wf

class Facts : Prop extends Facts₀ where

variable [Facts]
-- ==== Proof.KernelBlocks.lean ====
/-
  What the combine region leaves in its output array. The region walks 50 grid points; at point t every window
  holds rows 8000·t … 8000·t + 7999 of its [400000, 128] array, all four windows moving together. The body reads
  its three whole blocks and stores, whole, the entrywise selection: the gathered entry where the flag entry is
  not 0, the context entry otherwise. A block of an entrywise function of arrays is that function of the
  blocks, the 50 blocks tile the 400000 rows, so after the run the output array is the entrywise selection of
  the three input arrays as the region found them.
-/
import proofs.«122360_j10746008175064_2_alg».proof.Proof.Gen.KernelIdeal.Frame
import Idealize.ShloMosaic.Lib.Pipeline.Value
import Idealize.ShloMosaic.Lib.ValueIdx

set_option maxRecDepth 16384

noncomputable section

namespace Cert.KernelIdeal.Fill

open Cert.KernelIdeal Cert.KernelIdeal.Gen
open Idealize.ShloMosaic Idealize.ShloMosaic.TcCoe Idealize.SL.Sem
open Idealize.ShloMosaic.Pipeline (Dat Cfg Window)

variable {F : FTy → Type} [FloatOps F]

variable (m : (ℓ : Loc nD τ sig) → Buf (Elt F) ℓ) (ρ : Dev nD → PrngReg)

/-- The entrywise selection over [400000, 128] arrays: the gathered entry where the flag is not 0, else the context entry. -/
abbrev pick2 (ctx : S400000x128.Idx → Elt F .f32) (flg : S400000x128.Idx → Elt F .i32) (gat : S400000x128.Idx → Elt F .f32) :
    S400000x128.Idx → Elt F .f32 :=
  fun i => Scalar.select (IntOp.cmpi .ne (flg i) 0#32) (gat i) (ctx i)

theorem zero_offsets : (![0, 0] : Fin 2 → Nat) = fun _ => 0 := funext fun a => by fin_cases a <;> rfl

/-- The body's stored value at an entry of the block: the same selection of the three loaded blocks' entries
    (the body's shape casts are to the block's own shape). -/
theorem stored_apply (flg : Vec F S8000x128 .i32) (gat ctx : Vec F S8000x128 .f32) (y : S8000x128.Idx) :
    k0_pay1 flg gat ctx y = Scalar.select (IntOp.cmpi .ne (flg y) 0#32) (gat y) (ctx y) := by
  unfold k0_pay1
  simp only [shapeCast_self]
  rfl

/-- The printed index maps over the 50 points: every input window sits on the output window's block. -/
theorem same_block : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2) :=
  (by decide +kernel : ∀ t : Fin grid0.N, _)

/-- Every block row of the output array is some point's. -/
theorem every_block : ∀ (q0 : Fin 50) (q1 : Fin 1), ∃ t : Fin cfg0.N, win0_3.index t = ![q0.val, q1.val] :=
  (by decide +kernel : ∀ (q0 : Fin 50) (q1 : Fin 1), ∃ t : Fin grid0.N, win0_3.index t = ![q0.val, q1.val])

/-- What point t writes back is block t of the entrywise selection of the three input arrays. -/
theorem written_back (c : Dev nD) (t : Fin cfg0.N) :
    (dats m 0 c).flushed 3 t
      = ((cfg0.win 3).blk t).view.read (Elt F) (pick2 (V m c main_call0_v7) (V m c main_call0_v8) (V m c main_call0_v9)) := by
  show (cfg0.win 3).cut (grid0.coords t) ((dats m 0 c).after 3 t) = _
  rw [after0_3]
  unfold out0_3
  rw [View.canon_unit_zero zero_offsets]
  simp only [View.ld_unit_zero (S := S8000x128) zero_offsets]
  obtain ⟨e0, e1, e2, e3, e4, e5⟩ := same_block t
  funext j
  refine (stored_apply _ _ _ j).trans ?_
  show Scalar.select (IntOp.cmpi .ne (V m c main_call0_v8 (((cfg0.win 1).blk t).view.emb j)) 0#32)
      (V m c main_call0_v9 (((cfg0.win 2).blk t).view.emb j)) (V m c main_call0_v7 (((cfg0.win 0).blk t).view.emb j))
    = Scalar.select (IntOp.cmpi .ne (V m c main_call0_v8 (((cfg0.win 3).blk t).view.emb j)) 0#32)
      (V m c main_call0_v9 (((cfg0.win 3).blk t).view.emb j)) (V m c main_call0_v7 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 8000 + 1 * (j 0).val = win0_3.index t (0 : Fin 2) * 8000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 8000 + 1 * (j 0).val = win0_3.index t (0 : Fin 2) * 8000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 8000 + 1 * (j 0).val = win0_3.index t (0 : Fin 2) * 8000 + 1 * (j 0).val; omega
    | ⟨1, _⟩ => show win0_2.index t (1 : Fin 2) * 128 + 1 * (j 1).val = win0_3.index t (1 : Fin 2) * 128 + 1 * (j 1).val; omega
  rw [h0, h1, h2]

/-- An index of the output array is in point t's block iff each coordinate is in the block's range on its axis. -/
theorem in_block (t : Fin cfg0.N) (i : S400000x128.Idx) :
    i ∈ ((cfg0.win 3).blk t).view.set ↔ ∀ a : Fin 2, win0_3.index t a * S8000x128.size a ≤ (i a).val ∧ (i a).val < win0_3.index t a * S8000x128.size a + S8000x128.size a := by
  show i ∈ ((View.whole main_call0_v10).slice (win0_3.rect t)).set ↔ _
  rw [View.set_slice_whole, Rect.mem_set_unit]
  exact Iff.rfl

/-- The blocks tile the array: row r lies in the block of point r / 8000. -/
theorem tiled (i : S400000x128.Idx) :
    ∃ t : Fin cfg0.N, (cfg0.win 3).flush t = true ∧ i ∈ ((cfg0.win 3).blk t).view.set := by
  have hi0 : (i 0).val < 400000 := (i 0).isLt
  have hi1 : (i 1).val < 128 := (i 1).isLt
  obtain ⟨t, ht⟩ := every_block ⟨(i 0).val / 8000, by omega⟩ ⟨(i 1).val / 128, by omega⟩
  have q0 : win0_3.index t (0 : Fin 2) = (i 0).val / 8000 := congrFun ht 0
  have q1 : win0_3.index t (1 : Fin 2) = (i 1).val / 128 := congrFun ht 1
  refine ⟨t, flush0_3 t, ?_⟩
  rw [in_block]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 128 ≤ (i 1).val ∧ (i 1).val < win0_3.index t (1 : Fin 2) * 128 + 128; omega

/-- The output array after the run: the entrywise selection of the three input arrays as the region found them. -/
theorem output_array (c : Dev nD) :
    (dats m 0 c).arrAt 3 cfg0.N = pick2 (V m c main_call0_v7) (V m c main_call0_v8) (V m c main_call0_v9) :=
  (dats m 0 c).arrAt_eq_of_cover 3 _ (fun t _ => written_back m c t) tiled

end Cert.KernelIdeal.Fill

end
-- ==== Proof.KernelResult.lean ====
/-
  The kernel program's result as one function of its argument arrays. Before the region the host lines compute
  the gathered array — the table read at the (wrapped) cell ids — and view the contexts, the flags and the gathered
  array as [400000, 128]; after the region one host line views the output array as [8, 100000, 64] again. A view
  of an array in another shape keeps every entry at its row-major position, so it passes through an entrywise
  selection, and viewing there and back is the identity: the result is the entrywise selection, over
  [8, 100000, 64], of the gathered array and the contexts on the flags.
-/
import proofs.«122360_j10746008175064_2_alg».proof.Proof.KernelBlocks
import Idealize.ShloMosaic.Lib.StableHlo.Run

set_option maxRecDepth 16384

noncomputable section

namespace Cert.KernelIdeal.Fill

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-- The table read at the cell ids, a negative id first wrapped by the table's length: the host lines' term, never opened. -/
def gathered (table : (⟨S2000000, .f32⟩ : BufTy).Contents (Elt F)) (ids : (⟨S8x100000x64, .i32⟩ : BufTy).Contents (Elt F)) :
    (⟨S8x100000x64, .f32⟩ : BufTy).Contents (Elt F) :=
  Host.gather gather_S2000000_S8x100000x64x1_S8x100000x64_n_0_n_n_0_3_1 table
    (broadcastInDim S8x100000x64x1 ![0, 1, 2] bcast_S8x100000x64_S8x100000x64x1_0_1_2
      (select (cmpi .slt ids (broadcastInDim S8x100000x64 ![] bcast_S_S8x100000x64 (constantI S_ 32 0#32)))
        (addi ids (broadcastInDim S8x100000x64 ![] bcast_S_S8x100000x64 (constantI S_ 32 2000000#32))) ids))

/-- The entrywise selection over [8, 100000, 64] arrays. -/
abbrev pick3 (ctx : S8x100000x64.Idx → Elt F .f32) (flg : S8x100000x64.Idx → Elt F .i32) (gat : S8x100000x64.Idx → Elt F .f32) :
    S8x100000x64.Idx → Elt F .f32 :=
  fun i => Scalar.select (IntOp.cmpi .ne (flg i) 0#32) (gat i) (ctx i)

/-- At the region's entry window 0's array is the contexts viewed as [400000, 128]. -/
theorem entry_contexts (c : Dev nD) :
    (V m c main_call0_v7 : S400000x128.Idx → Elt F .f32)
      = shapeCast S400000x128 (m ((c : Thread nD τ).loc main_arg0)) shapeCasts_S8x100000x64_S400000x128 := by
  show StableHlo.after hostOps0 (fun b => m (c, b)) (Proc.devRef .tc main_call0_v7) = _
  after_results
  rfl

/-- Window 1's array is the flags viewed as [400000, 128]. -/
theorem entry_flags (c : Dev nD) :
    (V m c main_call0_v8 : S400000x128.Idx → Elt F .i32)
      = shapeCast S400000x128 (m ((c : Thread nD τ).loc main_arg2)) shapeCasts_S8x100000x64_S400000x128 := by
  show StableHlo.after hostOps0 (fun b => m (c, b)) (Proc.devRef .tc main_call0_v8) = _
  after_results
  rfl

/-- Window 2's array is the gathered array viewed as [400000, 128]. -/
theorem entry_gathered (c : Dev nD) :
    (V m c main_call0_v9 : S400000x128.Idx → Elt F .f32)
      = shapeCast S400000x128 (gathered (m ((c : Thread nD τ).loc main_arg1)) (m ((c : Thread nD τ).loc main_arg3)))
          shapeCasts_S8x100000x64_S400000x128 := by
  show StableHlo.after hostOps0 (fun b => m (c, b)) (Proc.devRef .tc main_call0_v9) = _
  after_results
  rfl

/-- The line after the region views the output array as [8, 100000, 64]. -/
theorem tail_result (c : Dev nD) :
    (Pipeline.afterTail₀ cfgs (dats m) 0 (V0 m) [hostOps1] c main_v0_0 : S8x100000x64.Idx → Elt F .f32)
      = shapeCast S8x100000x64 ((dats m 0 c).arrAt 3 cfg0.N) shapeCasts_S400000x128_S8x100000x64 := by
  unfold Pipeline.afterTail₀
  show StableHlo.after hostOps1 _ (Proc.devRef .tc main_v0_0) = _
  after_results
  exact congrArg (fun x => shapeCast S8x100000x64 x shapeCasts_S400000x128_S8x100000x64)
    (Pipeline.withArrays_arr spec0 launch0.win.arr_inj c _ _ 3)

/-- Viewing three arrays as [400000, 128], selecting entrywise, and viewing the result as [8, 100000, 64] is
    selecting entrywise over [8, 100000, 64]. -/
theorem pick_through_views (ctx : S8x100000x64.Idx → Elt F .f32) (flg : S8x100000x64.Idx → Elt F .i32) (gat : S8x100000x64.Idx → Elt F .f32) :
    shapeCast S8x100000x64
        (pick2 (shapeCast S400000x128 ctx shapeCasts_S8x100000x64_S400000x128)
          (shapeCast S400000x128 flg shapeCasts_S8x100000x64_S400000x128)
          (shapeCast S400000x128 gat shapeCasts_S8x100000x64_S400000x128))
        shapeCasts_S400000x128_S8x100000x64
      = pick3 ctx flg gat := by
  have e0 := shapeCast_shapeCast ctx shapeCasts_S8x100000x64_S400000x128 shapeCasts_S400000x128_S8x100000x64
  have e1 := shapeCast_shapeCast flg shapeCasts_S8x100000x64_S400000x128 shapeCasts_S400000x128_S8x100000x64
  have e2 := shapeCast_shapeCast gat shapeCasts_S8x100000x64_S400000x128 shapeCasts_S400000x128_S8x100000x64
  funext i
  show Scalar.select (IntOp.cmpi .ne (shapeCast S8x100000x64 (shapeCast S400000x128 flg shapeCasts_S8x100000x64_S400000x128) shapeCasts_S400000x128_S8x100000x64 i) 0#32)
      (shapeCast S8x100000x64 (shapeCast S400000x128 gat shapeCasts_S8x100000x64_S400000x128) shapeCasts_S400000x128_S8x100000x64 i)
      (shapeCast S8x100000x64 (shapeCast S400000x128 ctx shapeCasts_S8x100000x64_S400000x128) shapeCasts_S400000x128_S8x100000x64 i) = _
  rw [e0, e1, e2]

/-- The kernel program's first result after the run, as a function of its argument arrays. -/
theorem result_value (c : Dev nD) :
    (Pipeline.afterTail₀ cfgs (dats m) 0 (V0 m) [hostOps1] c main_v0_0 : S8x100000x64.Idx → Elt F .f32)
      = pick3 (m ((c : Thread nD τ).loc main_arg0)) (m ((c : Thread nD τ).loc main_arg2))
          (gathered (m ((c : Thread nD τ).loc main_arg1)) (m ((c : Thread nD τ).loc main_arg3))) := by
  rw [tail_result, output_array, entry_contexts, entry_flags, entry_gathered]
  exact pick_through_views _ _ _

end Cert.KernelIdeal.Fill

end
-- ==== Proof.RefSelect.lean ====
/-
  The reference program's result as one function of its argument arrays: entry by entry, the gathered entry —
  the table read at the (wrapped) cell ids — where the flag entry equals 1, the context entry otherwise.
-/
import proofs.«122360_j10746008175064_2_alg».proof.Defs
import proofs.«122360_j10746008175064_2_alg».proof.Proof.Gen.ReferenceIdeal.Run
import proofs.«122360_j10746008175064_2_alg».proof.Proof.Gen.ReferenceIdeal.Read
import Idealize.ShloMosaic.Lib.ValueIdx
import Idealize.ShloMosaic.Lib.Pipeline.Value

noncomputable section

namespace Cert.ReferenceIdeal.Fill

open Cert.ReferenceIdeal Cert.ReferenceIdeal.Gen Cert.ReferenceIdeal.Read
open Idealize.ShloMosaic Idealize.ShloMosaic.TcCoe Idealize.SL.Sem

variable {F : FTy → Type} [FloatOps F]

/-- The table read at the cell ids, a negative id first wrapped by the table's length: the program's term, never opened. -/
def gathered (table : (⟨S2000000, .f32⟩ : BufTy).Contents (Elt F)) (ids : (⟨S8x100000x64, .i32⟩ : BufTy).Contents (Elt F)) :
    (⟨S8x100000x64, .f32⟩ : BufTy).Contents (Elt F) :=
  Host.gather gather_S2000000_S8x100000x64x1_S8x100000x64_n_0_n_n_0_3_1 table
    (broadcastInDim S8x100000x64x1 ![0, 1, 2] bcast_S8x100000x64_S8x100000x64x1_0_1_2
      (select (cmpi .slt ids (broadcastInDim S8x100000x64 ![] bcast_S_S8x100000x64 (constantI S_ 32 0#32)))
        (addi ids (broadcastInDim S8x100000x64 ![] bcast_S_S8x100000x64 (constantI S_ 32 2000000#32))) ids))

/-- The reference's gather stage is that term. -/
theorem stage_gathered (x1 : (⟨S2000000, .f32⟩ : BufTy).Contents (Elt F)) (x3 : (⟨S8x100000x64, .i32⟩ : BufTy).Contents (Elt F)) :
    val_main_v6 (F := F) x1 x3 = gathered x1 x3 := rfl

/-- The reference's result at an entry: the gathered entry where the flag is 1, else the context entry. -/
theorem result_apply (x0 : (⟨S8x100000x64, .f32⟩ : BufTy).Contents (Elt F)) (x1 : (⟨S2000000, .f32⟩ : BufTy).Contents (Elt F))
    (x2 x3 : (⟨S8x100000x64, .i32⟩ : BufTy).Contents (Elt F)) (i : S8x100000x64.Idx) :
    val_main_v9 (F := F) x0 x1 x2 x3 i = Scalar.select (IntOp.cmpi .eq (x2 i) 1#32) (gathered x1 x3 i) (x0 i) := by
  rw [val_main_v9_apply, val_main_v8_apply, val_main_v7_apply, val_main_c_1_apply, stage_gathered]

end Cert.ReferenceIdeal.Fill

end
-- ==== Proof.FlagLaw.lean ====
/-
  The one law that joins the two programs. A flag is a 32-bit word used only as a mask. One program takes the
  replacement value where the flag is not 0, the other where the flag is 1. On a word that is 0 or 1 the two
  tests give the same bit, so the two selections choose the same operand.
-/
import Idealize.ShloMosaic.Lib.ValueIdx
import Idealize.ShloMosaic.Lib.Affine

namespace Cert.Fill

open Idealize.ShloMosaic

/-- On a word that is 0 or 1, "is not 0" and "is 1" are the same bit. -/
theorem ne_zero_eq_eq_one {f : BitVec 32} (h : f = 0#32 ∨ f = 1#32) :
    IntOp.cmpi .ne f 0#32 = IntOp.cmpi .eq f 1#32 := by
  rcases h with rfl | rfl <;> decide

/-- So a selection on either test picks the same operand. -/
theorem select_ne_zero_eq_select_eq_one {α : Type} {f : BitVec 32} (h : f = 0#32 ∨ f = 1#32) (a b : α) :
    Scalar.select (IntOp.cmpi .ne f 0#32) a b = Scalar.select (IntOp.cmpi .eq f 1#32) a b := by
  rw [ne_zero_eq_eq_one h]

end Cert.Fill
-- ==== Proof.FlagDomain.lean ====
/-
  What the precondition says of the flags. The precondition is the conjunction of three "for all entries" tests;
  the third says that every entry of the flag array equals 0 or equals 1. Read back at an entry, that is the
  hypothesis the flag law needs.
-/
import proofs.«122360_j10746008175064_2_alg».proof.Pre_finite_inputs
import Idealize.ShloMosaic.Lib.ReduceAll
import Idealize.ShloMosaic.Lib.ValueIdx
import Idealize.ShloMosaic.Lib.Pipeline.Value

noncomputable section

namespace Cert.Fill

open Idealize.ShloMosaic Cert.Pre_finite_inputs

instance scalar_index_unique : Subsingleton S_.Idx := ⟨fun a b => funext fun d => d.elim0⟩

/-- A scalar constant broadcast over the array reads that constant at every entry. -/
theorem splat_apply [Facts] (w : BitVec 32) (i : S8x100000x64.Idx) :
    broadcastInDim S8x100000x64 ![] Facts.bcast_S_S8x100000x64 (constantI S_ 32 w) i = w :=
  (broadcastInDim_apply _ Facts.bcast_S_S8x100000x64 (constantI S_ 32 w) i (fun a => a.elim0) (fun a => a.elim0)).trans rfl

/-- Under the precondition every flag entry is 0 or 1. -/
theorem flag_is_bit [Facts] {F : FTy → Type} [FloatOps F] (a0 : FVec F S8x100000x64 .f32) (a1 : FVec F S2000000 .f32)
    (a2 a3 : IVec S8x100000x64 32) (h : fn (F := F) a0 a1 a2 a3 = fun _ => 1#1) (i : S8x100000x64.Idx) :
    a2 i = 0#32 ∨ a2 i = 1#32 := by
  have h0 := congrFun h ValueIdx.ix0
  dsimp only [fn] at h0
  have h14 := (IntOp.andi_eq_one.1 h0).2
  have hi := Host.reduce_andi_all _ _ _ _ _ h14 i
  rcases IntOp.ori_eq_one.1 hi with e | e
  · exact Or.inl ((IntOp.cmpi_eq.1 e).trans (splat_apply 0#32 i))
  · exact Or.inr ((IntOp.cmpi_eq.1 e).trans (splat_apply 1#32 i))

end Cert.Fill

end
-- ==== Proof.Claims.lean ====
/-
  The five claims. Both idealized programs compute, entry by entry over [8, 100000, 64], a selection between the
  gathered entry (the table read at the wrapped cell id) and the context entry; the kernel program selects on
  "flag is not 0", the reference on "flag is 1". The gather is the same term of the same arguments in both
  programs. Under the precondition every flag is 0 or 1, where the two tests agree, so the two results are equal
  entry by entry. The second result of either program is the table itself, unchanged. No float arithmetic is
  done by either program, so the finiteness of the float inputs is not used.
-/
import proofs.«122360_j10746008175064_2_alg».proof.Defs
import proofs.«122360_j10746008175064_2_alg».proof.Proof.Gen.Kernel.Frame
import proofs.«122360_j10746008175064_2_alg».proof.Proof.Gen.Pre_finite_inputs
import proofs.«122360_j10746008175064_2_alg».proof.Proof.KernelResult
import proofs.«122360_j10746008175064_2_alg».proof.Proof.RefSelect
import proofs.«122360_j10746008175064_2_alg».proof.Proof.FlagLaw
import proofs.«122360_j10746008175064_2_alg».proof.Proof.FlagDomain

noncomputable section

namespace Cert.Proof.FillClaims

open Idealize.ShloMosaic Idealize.ShloMosaic.TcCoe Idealize.SL.Sem

/-- The two programs' gathered arrays are one term: the same gather of the same table at the same wrapped ids. -/
theorem gathered_same (table : Cert.ReferenceIdeal.S2000000.Idx → Elt Ideal .f32) (ids : Cert.ReferenceIdeal.S8x100000x64.Idx → Elt Ideal .i32) :
    Cert.ReferenceIdeal.Fill.gathered (F := Ideal) table ids = Cert.KernelIdeal.Fill.gathered (F := Ideal) table ids := rfl

theorem frame_kernel : Cert.frame_Kernel := fun m ρ _ => Cert.Kernel.Gen.frame m ρ

theorem frame_kernel_ideal : Cert.frame_KernelIdeal := fun m ρ _ => Cert.KernelIdeal.Gen.frame m ρ

/-- The reference's run, its results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

section KernelRun

open Cert.KernelIdeal Cert.KernelIdeal.Gen Cert.KernelIdeal.Fill

/-- The kernel program's run with its results named: the first is the entrywise selection, on "flag is not 0", of the
    gathered array and the contexts; the table and every argument end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0)
          = pick3 (m ((c.tc : Thread nD τ).loc main_arg0)) (m ((c.tc : Thread nD τ).loc main_arg2))
              (gathered (m ((c.tc : Thread nD τ).loc main_arg1)) (m ((c.tc : Thread nD τ).loc main_arg3)))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    have a0 := ((h c).2 main_arg0 (Pipeline.mem_restRefs_of main_arg0 (by decide) (by decide))).trans (W_main_arg0 m (dats m) c)
    have a1 := ((h c).2 main_arg1 (Pipeline.mem_restRefs_of main_arg1 (by decide) (by decide))).trans (W_main_arg1 m (dats m) c)
    have a2 := ((h c).2 main_arg2 (Pipeline.mem_restRefs_of main_arg2 (by decide) (by decide))).trans (W_main_arg2 m (dats m) c)
    have a3 := ((h c).2 main_arg3 (Pipeline.mem_restRefs_of main_arg3 (by decide) (by decide))).trans (W_main_arg3 m (dats m) c)
    ⟨((h c).2 main_v0_0 (Pipeline.mem_restRefs_of main_v0_0 (by decide) (by decide))).trans (result_value m c), a1, a0, a1, a2, a3⟩)
    (run_main m ρ)

end KernelRun

/-- From memories that agree on the arguments both programs end with equal results. -/
theorem algebraic : Cert.algebraic_KernelIdeal_ReferenceIdeal := by
  intro m ρ m' ρ' hpre hagree
  refine ⟨_, _, kernel_run m ρ, ?_⟩
  refine (θ_run Cert.ReferenceIdeal.defs _ _).mono (fun _ h c => ⟨(h c).1.trans ?_, (h c).2.1.trans (hagree c).2.1, (h c).2.2⟩)
    (Cert.ReferenceIdeal.Value.run (F := Ideal) m' ρ')
  rw [(hagree c).1, (hagree c).2.1, (hagree c).2.2.1, (hagree c).2.2.2, Cert.ReferenceIdeal.Read.val_main_v9_eq]
  funext i
  rw [Cert.ReferenceIdeal.Fill.result_apply, gathered_same]
  exact (Cert.Fill.select_ne_zero_eq_select_eq_one (Cert.Fill.flag_is_bit _ _ _ _ (hpre c) i) _ _).symm

end Cert.Proof.FillClaims

end
-- ==== Proof.lean ====
/-
  Filling missing values. Both programs take a context array, a table of learned cells, a flag array and an array of
  cell ids, all but the table of shape [8, 100000, 64], and return, entry by entry, the table entry at the cell id
  where the flag marks the context as missing and the context entry elsewhere, together with the table unchanged.
  The kernel program views the three [8, 100000, 64] arrays as [400000, 128], selects block by block over 50 blocks
  of 8000 rows on the test "flag is not 0", and views the result as [8, 100000, 64] again; the reference selects once
  on the test "flag is 1". A change of view keeps every entry, the blocks tile the rows, and on a flag that is 0 or 1
  — which the precondition states of every flag — the two tests agree, so the two results are equal entry by entry.

  Proof/FlagLaw: the two tests agree on a word that is 0 or 1. Proof/FlagDomain: the precondition gives that of every
  flag. Proof/KernelBlocks: the region's output array is the entrywise selection of its input arrays.
  Proof/KernelResult: the kernel program's result through the views before and after the region. Proof/RefSelect: the
  reference's result at an entry. Proof/Claims: the frames and the equality of the results.
-/
import proofs.«122360_j10746008175064_2_alg».proof.Defs
import proofs.«122360_j10746008175064_2_alg».proof.Proof.Gen.Kernel
import proofs.«122360_j10746008175064_2_alg».proof.Proof.Gen.KernelIdeal
import proofs.«122360_j10746008175064_2_alg».proof.Proof.Gen.ReferenceIdeal
import proofs.«122360_j10746008175064_2_alg».proof.Proof.Gen.Pre_finite_inputs
import proofs.«122360_j10746008175064_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    FillClaims.frame_kernel, FillClaims.frame_kernel_ideal, FillClaims.frame_reference_ideal, FillClaims.preserves,
    FillClaims.algebraic⟩

end Cert.Proof

end
